-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50x4096 : Shape := ⟨3, ![64, 50, 4096]⟩
abbrev S64x50x15x1024 : Shape := ⟨4, ![64, 50, 15, 1024]⟩
abbrev S1024x4096 : Shape := ⟨2, ![1024, 4096]⟩
abbrev S1024 : Shape := ⟨1, ![1024]⟩
abbrev S64x50 : Shape := ⟨2, ![64, 50]⟩
abbrev S_ : Shape := ⟨0, ![]⟩

class Facts : Prop where
  bcast_S_S64x50x4096 : S_.BroadcastsInDim S64x50x4096 (![] : Fin 0 → Fin S64x50x4096.rank)
  reducesTo_S64x50x4096_S_d0_1_2 : S64x50x4096.ReducesTo [0, 1, 2] S_
  h_S_ : 0 < S_.numel
  bcast_S_S64x50x15x1024 : S_.BroadcastsInDim S64x50x15x1024 (![] : Fin 0 → Fin S64x50x15x1024.rank)
  reducesTo_S64x50x15x1024_S_d0_1_2_3 : S64x50x15x1024.ReducesTo [0, 1, 2, 3] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S64x50 : S_.BroadcastsInDim S64x50 (![] : Fin 0 → Fin S64x50.rank)
  reducesTo_S64x50_S_d0_1 : S64x50.ReducesTo [0, 1] S_

variable [Facts]

def fn_part1 {F : FTy → Type} [FloatOps F] (main_arg4 : IVec S64x50 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S64x50 32 := broadcastInDim S64x50 ![] bcast_S_S64x50 main_c_6
  let main_v20 : IVec S64x50 1 := cmpi .ne main_arg4 main_v19
  let main_c_7 : IVec S_ 1 := constantI S_ 1 1#1
  let main_v21 : IVec S_ 1 := (fun x v => Host.reduce IntOp.andi x v reducesTo_S64x50_S_d0_1 h_S_) main_v20 main_c_7
  let main_v22 : IVec S_ 1 := andi main_v18 main_v21
  let main_c_8 : IVec S_ 32 := constantI S_ 32 0#32
  let main_v23 : IVec S64x50 32 := broadcastInDim S64x50 ![] bcast_S_S64x50 main_c_8
  let main_v24 : IVec S64x50 1 := cmpi .sge main_arg4 main_v23
  let main_c_9 : IVec S_ 1 := constantI S_ 1 1#1
  let main_v25 : IVec S_ 1 := (fun x v => Host.reduce IntOp.andi x v reducesTo_S64x50_S_d0_1 h_S_) main_v24 main_c_9
  let main_v26 : IVec S_ 1 := andi main_v22 main_v25
  main_v26

def fn {F : FTy → Type} [FloatOps F] (main_arg0 : FVec F S64x50x4096 .f32) (main_arg1 : FVec F S64x50x15x1024 .f32) (main_arg2 : FVec F S1024x4096 .f32) (main_arg3 : FVec F S1024 .f32) (main_arg4 : IVec S64x50 32) : IVec S_ 1 :=
  let main_v0 : FVec F S64x50x4096 .f32 := Host.absf main_arg0
  let main_cst : FVec F S_ .f32 := constant S_ .f32 0x7F800000#32
  let main_v1 : FVec F S64x50x4096 .f32 := broadcastInDim S64x50x4096 ![] bcast_S_S64x50x4096 main_cst
  let main_v2 : IVec S64x50x4096 1 := cmpf .olt main_v0 main_v1
  let main_c : IVec S_ 1 := constantI S_ 1 1#1
  let main_v3 : IVec S_ 1 := (fun x v => Host.reduce IntOp.andi x v reducesTo_S64x50x4096_S_d0_1_2 h_S_) main_v2 main_c
  let main_v4 : FVec F S64x50x15x1024 .f32 := Host.absf main_arg1
  let main_cst_0 : FVec F S_ .f32 := constant S_ .f32 0x7F800000#32
  let main_v5 : FVec F S64x50x15x1024 .f32 := broadcastInDim S64x50x15x1024 ![] bcast_S_S64x50x15x1024 main_cst_0
  let main_v6 : IVec S64x50x15x1024 1 := cmpf .olt main_v4 main_v5
  let main_c_1 : IVec S_ 1 := constantI S_ 1 1#1
  let main_v7 : IVec S_ 1 := (fun x v => Host.reduce IntOp.andi x v reducesTo_S64x50x15x1024_S_d0_1_2_3 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S64x50x4096 : Shape := ⟨3, ![64, 50, 4096]⟩
abbrev S64x50x15x1024 : Shape := ⟨4, ![64, 50, 15, 1024]⟩
abbrev S1024x4096 : Shape := ⟨2, ![1024, 4096]⟩
abbrev S1024 : Shape := ⟨1, ![1024]⟩
abbrev S64x50 : Shape := ⟨2, ![64, 50]⟩
abbrev S3200x4096 : Shape := ⟨2, ![3200, 4096]⟩
abbrev S1x1024 : Shape := ⟨2, ![1, 1024]⟩
abbrev S3200x2048 : Shape := ⟨2, ![3200, 2048]⟩
abbrev S320x4096 : Shape := ⟨2, ![320, 4096]⟩
abbrev S320x1024 : Shape := ⟨2, ![320, 1024]⟩
abbrev S3200x15x1024 : Shape := ⟨3, ![3200, 15, 1024]⟩
abbrev S3200x1 : Shape := ⟨2, ![3200, 1]⟩
abbrev S200x15x1024 : Shape := ⟨3, ![200, 15, 1024]⟩
abbrev S200x1 : Shape := ⟨2, ![200, 1]⟩
abbrev S200x1024 : Shape := ⟨2, ![200, 1024]⟩
abbrev S64x50x2048 : Shape := ⟨3, ![64, 50, 2048]⟩

abbrev nBuf : Space → Nat
  | .hbm => 13
  | .vmem => 12
  | .smem => 0
  | _ => 0

abbrev bufTy : (tb : Table) → Fin (tcTables nBuf tb) → BufTy
  | .hbm, ⟨0, _⟩ => ⟨S64x50x4096, .f32⟩
  | .hbm, ⟨1, _⟩ => ⟨S64x50x15x1024, .f32⟩
  | .hbm, ⟨2, _⟩ => ⟨S1024x4096, .f32⟩
  | .hbm, ⟨3, _⟩ => ⟨S1024, .f32⟩
  | .hbm, ⟨4, _⟩ => ⟨S64x50, .i32⟩
  | .hbm, ⟨5, _⟩ => ⟨S3200x4096, .f32⟩
  | .hbm, ⟨6, _⟩ => ⟨S1x1024, .f32⟩
  | .hbm, ⟨7, _⟩ => ⟨S1024x4096, .bf16⟩
  | .hbm, ⟨8, _⟩ => ⟨S3200x2048, .f32⟩
  | .hbm, ⟨9, _⟩ => ⟨S3200x15x1024, .f32⟩
  | .hbm, ⟨10, _⟩ => ⟨S3200x1, .i32⟩
  | .hbm, ⟨11, _⟩ => ⟨S3200x2048, .f32⟩
  | .hbm, ⟨12, _⟩ => ⟨S64x50x2048, .f32⟩
  | .local _ .vmem, ⟨0, _⟩ => ⟨S320x4096, .f32⟩
  | .local _ .vmem, ⟨1, _⟩ => ⟨S320x4096, .f32⟩
  | .local _ .vmem, ⟨2, _⟩ => ⟨S1024x4096, .bf16⟩
  | .local _ .vmem, ⟨3, _⟩ => ⟨S1x1024, .f32⟩
  | .local _ .vmem, ⟨4, _⟩ => ⟨S320x1024, .f32⟩
  | .local _ .vmem, ⟨5, _⟩ => ⟨S320x1024, .f32⟩
  | .local _ .vmem, ⟨6, _⟩ => ⟨S200x15x1024, .f32⟩
  | .local _ .vmem, ⟨7, _⟩ => ⟨S200x15x1024, .f32⟩
  | .local _ .vmem, ⟨8, _⟩ => ⟨S200x1, .i32⟩
  | .local _ .vmem, ⟨9, _⟩ => ⟨S200x1, .i32⟩
  | .local _ .vmem, ⟨10, _⟩ => ⟨S200x1024, .f32⟩
  | .local _ .vmem, ⟨11, _⟩ => ⟨S200x1024, .f32⟩
  | _, _ => ⟨S64x50x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage1_0 : Fin 2 → Memref sig .tc .vmem S200x15x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64x50x4096_S3200x4096 : S64x50x4096.ShapeCasts S3200x4096
  shapeCasts_S1024_S1x1024 : S1024.ShapeCasts S1x1024
  bitsLt_bf16_f32 : FTy.bits .bf16 < FTy.bits .f32
  inb_S320x4096_S320x4096_0_0 : ∀ a, (![0, 0] : Fin 2 → Nat) a + S320x4096.size a ≤ S320x4096.size a
  h_S320x4096 : 0 < S320x4096.numel
  shapeCasts_S320x4096_S320x4096 : S320x4096.ShapeCasts S320x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S320x1024 : S1x1024.Broadcasts S320x1024
  inb_S320x1024_S320x1024_0_0 : ∀ a, (![0, 0] : Fin 2 → Nat) a + S320x1024.size a ≤ S320x1024.size a
  h_S320x1024 : 0 < S320x1024.numel
  shapeCasts_S64x50x15x1024_S3200x15x1024 : S64x50x15x1024.ShapeCasts S3200x15x1024
  shapeCasts_S64x50_S3200x1 : S64x50.ShapeCasts S3200x1
  inb_S200x15x1024_S200x15x1024_0_0_0 : ∀ a, (![0, 0, 0] : Fin 3 → Nat) a + S200x15x1024.size a ≤ S200x15x1024.size a
  h_S200x15x1024 : 0 < S200x15x1024.numel
  shapeCasts_S200x15x1024_S200x15x1024 : S200x15x1024.ShapeCasts S200x15x1024
  reduces_S200x15x1024_S200x1024 : S200x15x1024.Reduces [1] S200x1024
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x1024 : S200x1.Broadcasts S200x1024
  inb_S200x1024_S200x1024_0_0 : ∀ a, (![0, 0] : Fin 2 → Nat) a + S200x1024.size a ≤ S200x1024.size a
  h_S200x1024 : 0 < S200x1024.numel
  shapeCasts_S3200x2048_S64x50x2048 : S3200x2048.ShapeCasts S64x50x2048
  dot_S320x4096_S1024x4096_S320x1024_1_1_0_0_n_n_wf : DotDims.WF S320x4096 S1024x4096 S320x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x4096.size a ≤ S3200x4096.size a
  hwx0_0 : ∀ i : grid0.Coords, EltTy.bits .f32 = 32 ∨ (Rect.block (s := S3200x4096) S320x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x1024.size a ≤ S3200x2048.size a
  hwx0_3 : ∀ i : grid0.Coords, EltTy.bits .f32 = 32 ∨ (Rect.block (s := S3200x2048) S320x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x15x1024.size a ≤ S3200x15x1024.size a
  hwx1_0 : ∀ i : grid1.Coords, EltTy.bits .f32 = 32 ∨ (Rect.block (s := S3200x15x1024) S200x15x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S3200x1.size a
  hwx1_1 : ∀ i : grid1.Coords, EltTy.bits .i32 = 32 ∨ (Rect.block (s := S3200x1) S200x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S200x1024.size a ≤ S3200x2048.size a
  hwx1_2 : ∀ i : grid1.Coords, EltTy.bits .f32 = 32 ∨ (Rect.block (s := S3200x2048) S200x1024.size (cc1_transform_3 i) (hinb1_2 i)).WholeWords (EltTy.packing .f32)

variable [Facts₀]

def dot_S320x4096_S1024x4096_S320x1024_1_1_0_0_n_n : DotDims S320x4096 S1024x4096 S320x1024 where
  lhsContracting := [1]
  rhsContracting := [1]
  lhsNonContracting := [0]
  rhsNonContracting := [0]
  lhsBatch := []
  rhsBatch := []
  wf := dot_S320x4096_S1024x4096_S320x1024_1_1_0_0_n_n_wf

abbrev win0_0 : Pipeline.Window sig grid0 :=
  Pipeline.Window.ofSpec (Memref.whole main_v0) S320x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S320x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S200x15x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S200x1024.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x50x4096 : Shape := ⟨3, ![64, 50, 4096]⟩
abbrev S64x50x15x1024 : Shape := ⟨4, ![64, 50, 15, 1024]⟩
abbrev S1024x4096 : Shape := ⟨2, ![1024, 4096]⟩
abbrev S1024 : Shape := ⟨1, ![1024]⟩
abbrev S64x50 : Shape := ⟨2, ![64, 50]⟩
abbrev S_ : Shape := ⟨0, ![]⟩
abbrev S64x50x1024 : Shape := ⟨3, ![64, 50, 1024]⟩
abbrev S64x50x1 : Shape := ⟨3, ![64, 50, 1]⟩
abbrev S1x1x1024 : Shape := ⟨3, ![1, 1, 1024]⟩
abbrev S64x50x2048 : Shape := ⟨3, ![64, 50, 2048]⟩

abbrev nBuf : Space → Nat
  | .hbm => 19
  | .vmem => 0
  | .smem => 0
  | _ => 0

abbrev bufTy : (tb : Table) → Fin (tcTables nBuf tb) → BufTy
  | .hbm, ⟨0, _⟩ => ⟨S64x50x4096, .f32⟩
  | .hbm, ⟨1, _⟩ => ⟨S64x50x15x1024, .f32⟩
  | .hbm, ⟨2, _⟩ => ⟨S1024x4096, .f32⟩
  | .hbm, ⟨3, _⟩ => ⟨S1024, .f32⟩
  | .hbm, ⟨4, _⟩ => ⟨S64x50, .i32⟩
  | .hbm, ⟨5, _⟩ => ⟨S_, .f32⟩
  | .hbm, ⟨6, _⟩ => ⟨S64x50x1024, .f32⟩
  | .hbm, ⟨7, _⟩ => ⟨S64x50x1, .i32⟩
  | .hbm, ⟨8, _⟩ => ⟨S64x50x1, .f32⟩
  | .hbm, ⟨9, _⟩ => ⟨S64x50x1024, .f32⟩
  | .hbm, ⟨10, _⟩ => ⟨S64x50x1024, .f32⟩
  | .hbm, ⟨11, _⟩ => ⟨S64x50x1024, .f32⟩
  | .hbm, ⟨12, _⟩ => ⟨S1x1x1024, .f32⟩
  | .hbm, ⟨13, _⟩ => ⟨S64x50x1024, .f32⟩
  | .hbm, ⟨14, _⟩ => ⟨S64x50x1024, .f32⟩
  | .hbm, ⟨15, _⟩ => ⟨S_, .f32⟩
  | .hbm, ⟨16, _⟩ => ⟨S64x50x1024, .f32⟩
  | .hbm, ⟨17, _⟩ => ⟨S64x50x1024, .f32⟩
  | .hbm, ⟨18, _⟩ => ⟨S64x50x2048, .f32⟩
  | _, _ => ⟨S64x50x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S64x50x15x1024_S64x50x1024_d2 : S64x50x15x1024.ReducesTo [2] S64x50x1024
  h_S_ : 0 < S_.numel
  bcast_S64x50_S64x50x1_0_1 : S64x50.BroadcastsInDim S64x50x1 (![0, 1] : Fin 2 → Fin S64x50x1.rank)
  bcast_S64x50x1_S64x50x1024_0_1_2 : S64x50x1.BroadcastsInDim S64x50x1024 (![0, 1, 2] : Fin 3 → Fin S64x50x1024.rank)
  bcast_S1024_S1x1x1024_2 : S1024.BroadcastsInDim S1x1x1024 (![2] : Fin 1 → Fin S1x1x1024.rank)
  bcast_S1x1x1024_S64x50x1024_0_1_2 : S1x1x1024.BroadcastsInDim S64x50x1024 (![0, 1, 2] : Fin 3 → Fin S64x50x1024.rank)
  bcast_S_S64x50x1024 : S_.BroadcastsInDim S64x50x1024 (![] : Fin 0 → Fin S64x50x1024.rank)
  concatenates_S64x50x1024_S64x50x1024_S64x50x2048_d2 : Shape.Concatenates [S64x50x1024, S64x50x1024] S64x50x2048 2
  dot_S64x50x4096_S1024x4096_S64x50x1024_2_1_01_0_n_n_wf : DotDims.WF S64x50x4096 S1024x4096 S64x50x1024 [2] [1] [0, 1] [0] [] []

variable [Facts₀]

def dot_S64x50x4096_S1024x4096_S64x50x1024_2_1_01_0_n_n : DotDims S64x50x4096 S1024x4096 S64x50x1024 where
  lhsContracting := [2]
  rhsContracting := [1]
  lhsNonContracting := [0, 1]
  rhsNonContracting := [0]
  lhsBatch := []
  rhsBatch := []
  wf := dot_S64x50x4096_S1024x4096_S64x50x1024_2_1_01_0_n_n_wf

class Facts : Prop extends Facts₀ where

variable [Facts]
-- ==== Proof.FinalRun.lean ====
/-
  The run of the idealized kernel program with its final memory named.  The program is five segments: three host
  reshapes / the weight's format change, the matmul call over ten row tiles, three more host operations (two reshapes
  and the copy of the slab into the second call's aliased result), the mean-pool call over sixteen row tiles, and the
  final reshape.  The contents of every unscoped buffer at each segment boundary are a fold `W0 … W5` from the launch
  memory; this module states the run once with the post "every unscoped buffer ends at `W5`", from which the result
  buffer and the unchanged arguments are read off.
-/
import proofs.«171343_j85280870629775_2_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result buffer named: it ends at `W5` read at the result's reference, and the five arguments
    end as launched. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
    (run_all m ρ)

end Cert.KernelIdeal.Final

end
-- ==== Proof.Entry.lean ====
/-
  The arrays each kernel call finds, and the arrays the program ends with, as functions of the launch memory.

  Before the matmul call the host reshapes the features to [3200, 4096] and the bias to [1, 1024] and changes the
  weight's float format; the call's output is the [3200, 2048] slab.  Before the mean-pool call the host reshapes the
  phrases to [3200, 15, 1024] and the lengths to [3200, 1] and copies the slab into the call's aliased result, so that
  call starts from the slab as the matmul call left it.  The program's result is the second slab reshaped to
  [64, 50, 2048].  None of these host steps touches an argument array, so each reads the launch memory.
-/
import proofs.«171343_j85280870629775_2_alg».proof.Proof.Gen.KernelIdeal.Frame
import Idealize.ShloMosaic.Lib.StableHlo.Run
import Idealize.ShloMosaic.Lib.Pipeline.Value

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The matmul call's feature array: the features reshaped to [3200, 4096]. -/
theorem features (c : Dev nD) : V1 m ρ c main_v0
    = shapeCast S3200x4096 (m ((c : Thread nD τ).loc main_arg0)) shapeCasts_S64x50x4096_S3200x4096 := by
  show StableHlo.after hostOps0 (W0 m ρ c) (Proc.devRef .tc main_v0) = _
  after_results
  rfl

/-- The matmul call's bias row: the bias reshaped to [1, 1024]. -/
theorem biasRow (c : Dev nD) : V1 m ρ c main_v1
    = shapeCast S1x1024 (m ((c : Thread nD τ).loc main_arg3)) shapeCasts_S1024_S1x1024 := by
  show StableHlo.after hostOps0 (W0 m ρ c) (Proc.devRef .tc main_v1) = _
  after_results
  rfl

/-- The matmul call's weight: the weight in the narrower float format. -/
theorem weight (c : Dev nD) : V1 m ρ c main_v2
    = truncf .bf16 (m ((c : Thread nD τ).loc main_arg2)) bitsLt_bf16_f32 := by
  show StableHlo.after hostOps0 (W0 m ρ c) (Proc.devRef .tc main_v2) = _
  after_results

/-- The phrases, as the matmul call leaves them: untouched since the launch. -/
theorem phrases_kept (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

/-- The lengths, as the matmul call leaves them: untouched since the launch. -/
theorem lengths_kept (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

/-- The mean-pool call's phrase array: the phrases reshaped to [3200, 15, 1024]. -/
theorem phrases (c : Dev nD) : V3 m ρ c main_v4
    = shapeCast S3200x15x1024 (m ((c : Thread nD τ).loc main_arg1)) shapeCasts_S64x50x15x1024_S3200x15x1024 := by
  show StableHlo.after hostOps1 (W2 m ρ c) (Proc.devRef .tc main_v4) = _
  after_results
  rw [phrases_kept]
  rfl

/-- The mean-pool call's length column: the lengths reshaped to [3200, 1]. -/
theorem lengths (c : Dev nD) : V3 m ρ c main_v5
    = shapeCast S3200x1 (m ((c : Thread nD τ).loc main_arg4)) shapeCasts_S64x50_S3200x1 := by
  show StableHlo.after hostOps1 (W2 m ρ c) (Proc.devRef .tc main_v5) = _
  after_results
  rw [lengths_kept]
  rfl

/-- The mean-pool call starts from the slab as the matmul call left it. -/
theorem slab_in (c : Dev nD) : V3 m ρ c main_v6 = (dat0 (V1 m ρ) c).arrAt 3 cfg0.N := by
  show StableHlo.after hostOps1 (W2 m ρ c) (Proc.devRef .tc main_v6) = _
  after_results
  exact W2_arr m ρ c 3

/-- The program's result: the slab as the mean-pool call left it, reshaped to [64, 50, 2048]. -/
theorem result (c : Dev nD) : W5 m ρ c (Proc.devRef .tc main_v7)
    = shapeCast S64x50x2048 ((dat1 (V3 m ρ) c).arrAt 2 cfg1.N) shapeCasts_S3200x2048_S64x50x2048 := by
  show StableHlo.after hostOps2 (W4 m ρ c) (Proc.devRef .tc main_v7) = _
  after_results
  have e : W4 m ρ c (Proc.devRef .tc main_v6) = (dat1 (V3 m ρ) c).arrAt 2 cfg1.N := W4_arr m ρ c 2
  rw [e]
  rfl

end Cert.KernelIdeal.Entry

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Tile0.lean ====
/-
  The matmul call's body at an entry of its output tile.

  At a grid point the body loads a [320, 4096] tile of features, the whole [1024, 4096] weight and the [1, 1024] bias
  row, and stores one [320, 1024] tile: the features times the transposed weight into a zero accumulator, plus the bias
  row broadcast down the rows, rectified.  At the ideal values the two format changes are the identity, so the entry at
  row `p`, column `q` of the stored tile is  `max (∑ₖ x(p,k) · w(q,k) + bias(0,q)) 0`.
-/
import proofs.«171343_j85280870629775_2_alg».proof.Proof.Gen.KernelIdeal.Frame
import proofs.«171343_j85280870629775_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile0

open Cert.KernelIdeal Cert.KernelIdeal.Gen Idealize.ShloMosaic Idealize.ShloMosaic.ValueIdx

/-- The body's rectangles all start at the origin of their buffers. -/
theorem origin2 : (![0, 0] : Fin 2 → Nat) = fun _ => 0 := funext fun a => by fin_cases a <;> rfl

/-- The stored value at `(p, q)`: the row of the feature tile against row `q` of the weight, plus the bias at `q`, rectified. -/
theorem pay_apply (x : FVec Ideal S320x4096 .f32) (w : FVec Ideal S1024x4096 .bf16) (bias : FVec Ideal S1x1024 .f32)
    (p : Fin 320) (q : Fin 1024) :
    k0_pay1 (F := Ideal) x w bias (ix2 p q)
      = max ((∑ k : Fin 4096, x (ix2 p k) * w (ix2 q k)) + bias (ix2 (0 : Fin 1) q)) 0 := by
  unfold k0_pay1
  show max (FloatOps.matmul dot_S320x4096_S1024x4096_S320x1024_1_1_0_0_n_n none
        (truncf .bf16 (shapeCast S320x4096 x shapeCasts_S320x4096_S320x4096) bitsLt_bf16_f32)
        (shapeCast S1024x4096 w shapeCasts_S1024x4096_S1024x4096) (constant S320x1024 .f32 0x00000000#32) (ix2 p q)
      + broadcastTo S320x1024 (shapeCast S1x1024 bias shapeCasts_S1x1024_S1x1024) broadcasts_S1x1024_S320x1024 (ix2 p q))
      (Ideal.ofBits .f32 0x00000000#32) = _
  rw [Ideal.ofBits_zero_f32, shapeCast_self, shapeCast_self, shapeCast_self, broadcastTo_1b_ab_apply]
  refine congrArg (fun s => max (s + bias (ix2 (0 : Fin 1) q)) 0) ?_
  exact Idealize.ShloMosaic.MatmulT.matmul_zero_apply dot_S320x4096_S1024x4096_S320x1024_1_1_0_0_n_n_wf none _ w p q

/-- What the body leaves in the output tile's buffer, at `(p, q)`, from the three loaded blocks. -/
theorem out_apply (x : FVec Ideal S320x4096 .f32) (w : FVec Ideal S1024x4096 .bf16) (bias : FVec Ideal S1x1024 .f32)
    (p : Fin 320) (q : Fin 1024) :
    out0_3 (F := Ideal) x w bias (ix2 p q)
      = max ((∑ k : Fin 4096, x (ix2 p k) * w (ix2 q k)) + bias (ix2 (0 : Fin 1) q)) 0 := by
  unfold out0_3
  rw [View.canon_unit_zero origin2]
  simp only [View.ld_unit_zero (S := S320x4096) origin2, View.ld_unit_zero (S := S1024x4096) origin2,
    View.ld_unit_zero (S := S1x1024) origin2]
  exact pay_apply x w bias p q

end Cert.KernelIdeal.Tile0

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Tile1.lean ====
/-
  The mean-pool call's body at an entry of its output tile.

  At a grid point the body loads a [200, 15, 1024] tile of token embeddings and the [200, 1] column of phrase lengths,
  and stores one [200, 1024] tile: the sum over the fifteen token slots, divided by the length column — converted to
  a real number, raised to at least one — broadcast across the 1024 lanes.  The entry at row `p`, lane `q` is
  `(∑ₗ x(p,l,q)) / max n(p,0) 1`.
-/
import proofs.«171343_j85280870629775_2_alg».proof.Proof.Gen.KernelIdeal.Frame
import proofs.«171343_j85280870629775_2_alg».proof.Proof.LibKeepdims
import Idealize.ShloMosaic.Lib.Pipeline.Value
import Idealize.ShloMosaic.Lib.ValueIdx
import Idealize.ShloMosaic.PureOps.Ideal.Laws

noncomputable section

namespace Cert.KernelIdeal.Tile1

open Cert.KernelIdeal Cert.KernelIdeal.Gen Idealize.ShloMosaic Idealize.ShloMosaic.ValueIdx
open Idealize.ShloMosaic.TcCoe Idealize.ShloMosaic.Tactic Idealize.SL.Sem

/-- The body's rectangles all start at the origin of their buffers. -/
theorem origin2 : (![0, 0] : Fin 2 → Nat) = fun _ => 0 := funext fun a => by fin_cases a <;> rfl
theorem origin3 : (![0, 0, 0] : Fin 3 → Nat) = fun _ => 0 := funext fun a => by fin_cases a <;> rfl

set_option maxHeartbeats 1000000 in
/-- What the body leaves in the output tile's buffer is its one stored value, computed from the two loaded blocks:
    the body's single store covers the whole tile, and what it loads is what the input buffers hold. -/
theorem out_eq {F : FTy → Type} [FloatOps F] (c : Dev nD) (i : grid1.Coords)
    (arg1 : Memref sig .tc .vmem S200x15x1024 .f32) (harg1 : arg1.IsWhole)
    (arg2 : Memref sig .tc .vmem S200x1 .i32) (harg2 : arg2.IsWhole)
    (arg4 : Memref sig .tc .vmem S200x1024 .f32) (harg4 : arg4.IsWhole)
    (x0 : Vec F S200x15x1024 .f32) (x1 : Vec F S200x1 .i32) :
    out1_A_2 (F := F) c i arg1 harg1 arg2 harg2 arg4 harg4 x0 x1 = k1_pay1 x0 x1 := by
  unfold out1_A_2
  rw [View.read_writes_eq_canon _ _ _ (cover1_A_2 c i arg1 harg1 arg2 harg2 arg4 harg4 x0 x1)]
  unfold kernelRun1_A
  dsimp only
  rw [View.canon_unit_zero origin2]
  simp only [View.readAt_eq_ld, harg1.read_unread, harg2.read_unread, View.ld_unit_zero (S := S200x15x1024) origin3,
    View.ld_unit_zero (S := S200x1) origin2]

/-- The sum over the token axis of a [200, 15, 1024] tile, at `(p, q)`: the fifteen entries `(p, l, q)`. -/
theorem tokens_apply (x : FVec Ideal S200x15x1024 .f32) (hφ : FKind.Formats .f32)
    (hacc : (0x00000000#32 : BitVec 32) = FKind.add.neutral .f32 hφ) (p : Fin 200) (q : Fin 1024) :
    multiReduction .add [1] S200x1024 x 0x00000000#32 reduces_S200x15x1024_S200x1024 hφ hacc (ix2 p q)
      = ∑ l : Fin 15, x (ix3 p l q) := by
  refine (Ideal.multiReduction_add_single x 0x00000000#32 reduces_S200x15x1024_S200x1024 hφ hacc (ix2 p q)).trans ?_
  refine Finset.sum_congr rfl fun l _ => congrArg x (funext fun a => Fin.ext ?_)
  match a with
  | ⟨0, _⟩ => rfl
  | ⟨1, _⟩ => rfl
  | ⟨2, _⟩ => rfl

/-- The stored value at `(p, q)`: the token sum over the guarded length of row `p`. -/
theorem pay_apply (x : FVec Ideal S200x15x1024 .f32) (n : IVec S200x1 32) (p : Fin 200) (q : Fin 1024) :
    k1_pay1 (F := Ideal) x n (ix2 p q)
      = Ideal.div (∑ l : Fin 15, x (ix3 p l q))
          (max ((((n (ix2 p (0 : Fin 1))).toInt : ℝ)) : EReal) (Ideal.ofBits .f32 0x3F800000#32)) := by
  unfold k1_pay1
  show Ideal.div (multiReduction .add [1] S200x1024 (shapeCast S200x15x1024 x shapeCasts_S200x15x1024_S200x15x1024)
        0x00000000#32 reduces_S200x15x1024_S200x1024 (.inl rfl) rfl (ix2 p q))
      (broadcastTo S200x1024 (maximumf (sitofp (F := Ideal) .f32 (shapeCast S200x1 n shapeCasts_S200x1_S200x1))
        (broadcast S200x1 (Scalar.ofBits (F := Ideal) .f32 0x3F800000#32))) broadcasts_S200x1_S200x1024 (ix2 p q)) = _
  rw [shapeCast_self, shapeCast_self, Idealize.ShloMosaic.Keepdims.broadcastTo_a1_ab_apply]
  exact congrArg₂ Ideal.div (tokens_apply x (.inl rfl) rfl p q) rfl

end Cert.KernelIdeal.Tile1

end
-- ==== Proof.Rows.lean ====
/-
  The host's reshapes between the [64, 50, …] arrays and their [3200, …] row forms, read at an index.

  A reshape keeps the row-major position, so row `R` of a flattened array is batch `R / 50`, region `R % 50`, and
  entry `(b, r)` of the unflattened result is row `b · 50 + r`.  Stated for any element type, with no program in
  sight.
-/
import Idealize.ShloMosaic.Lib.Pipeline.Value
import Idealize.ShloMosaic.Lib.ValueIdx

namespace Cert.Rows

open Idealize.ShloMosaic Idealize.ShloMosaic.ValueIdx

variable {α : Type}

/-- The batch and the region of a flattened row. -/
def batchOf (R : Fin 3200) : Fin 64 := ⟨R.val / 50, by have := R.isLt; omega⟩
def regionOf (R : Fin 3200) : Fin 50 := ⟨R.val % 50, by omega⟩
/-- The flattened row of a batch and a region. -/
def rowOf (b : Fin 64) (r : Fin 50) : Fin 3200 := ⟨b.val * 50 + r.val, by have := b.isLt; have := r.isLt; omega⟩

theorem batchOf_rowOf (b : Fin 64) (r : Fin 50) : batchOf (rowOf b r) = b :=
  Fin.ext (by show (b.val * 50 + r.val) / 50 = b.val; have := r.isLt; omega)
theorem regionOf_rowOf (b : Fin 64) (r : Fin 50) : regionOf (rowOf b r) = r :=
  Fin.ext (by show (b.val * 50 + r.val) % 50 = r.val; have := r.isLt; omega)

/-- [64, 50, 4096] → [3200, 4096]. -/
theorem features_at (x : (⟨3, ![64, 50, 4096]⟩ : Shape).Idx → α)
    (h : (⟨3, ![64, 50, 4096]⟩ : Shape).ShapeCasts ⟨2, ![3200, 4096]⟩) (R : Fin 3200) (k : Fin 4096) :
    shapeCast ⟨2, ![3200, 4096]⟩ x h (ix2 R k) = x (ix3 (batchOf R) (regionOf R) k) :=
  shapeCast_apply x h _ _ (by
    rw [Shape.rowMajor_val_three, Shape.rowMajor_val_two]
    show (R.val / 50 * 50 + R.val % 50) * 4096 + k.val = R.val * 4096 + k.val
    have : R.val / 50 * 50 + R.val % 50 = R.val := by omega
    rw [this])

/-- [1024] → [1, 1024]. -/
theorem bias_at (x : (⟨1, ![1024]⟩ : Shape).Idx → α)
    (h : (⟨1, ![1024]⟩ : Shape).ShapeCasts ⟨2, ![1, 1024]⟩) (q : Fin 1024) :
    shapeCast ⟨2, ![1, 1024]⟩ x h (ix2 (0 : Fin 1) q) = x (ix1 q) :=
  shapeCast_apply x h _ _ (by
    rw [Shape.rowMajor_val_one, Shape.rowMajor_val_two]
    show q.val = 0 * 1024 + q.val
    omega)

/-- [64, 50, 15, 1024] → [3200, 15, 1024]. -/
theorem phrases_at (x : (⟨4, ![64, 50, 15, 1024]⟩ : Shape).Idx → α)
    (h : (⟨4, ![64, 50, 15, 1024]⟩ : Shape).ShapeCasts ⟨3, ![3200, 15, 1024]⟩) (R : Fin 3200) (l : Fin 15) (q : Fin 1024) :
    shapeCast ⟨3, ![3200, 15, 1024]⟩ x h (ix3 R l q) = x (ix4 (batchOf R) (regionOf R) l q) :=
  shapeCast_apply x h _ _ (by
    rw [Shape.rowMajor_val_four, Shape.rowMajor_val_three]
    show ((R.val / 50 * 50 + R.val % 50) * 15 + l.val) * 1024 + q.val = (R.val * 15 + l.val) * 1024 + q.val
    have : R.val / 50 * 50 + R.val % 50 = R.val := by omega
    rw [this])

/-- [64, 50] → [3200, 1]. -/
theorem lengths_at (x : (⟨2, ![64, 50]⟩ : Shape).Idx → α)
    (h : (⟨2, ![64, 50]⟩ : Shape).ShapeCasts ⟨2, ![3200, 1]⟩) (R : Fin 3200) :
    shapeCast ⟨2, ![3200, 1]⟩ x h (ix2 R (0 : Fin 1)) = x (ix2 (batchOf R) (regionOf R)) :=
  shapeCast_apply x h _ _ (by
    rw [Shape.rowMajor_val_two, Shape.rowMajor_val_two]
    show R.val / 50 * 50 + R.val % 50 = R.val * 1 + 0
    omega)

/-- [3200, 2048] → [64, 50, 2048]. -/
theorem result_at (s : (⟨2, ![3200, 2048]⟩ : Shape).Idx → α)
    (h : (⟨2, ![3200, 2048]⟩ : Shape).ShapeCasts ⟨3, ![64, 50, 2048]⟩) (b : Fin 64) (r : Fin 50) (j : Fin 2048) :
    shapeCast ⟨3, ![64, 50, 2048]⟩ s h (ix3 b r j) = s (ix2 (rowOf b r) j) :=
  shapeCast_apply s h _ _ (by
    rw [Shape.rowMajor_val_two, Shape.rowMajor_val_three]
    rfl)

end Cert.Rows
-- ==== Proof.Spec.lean ====
/-
  The function both programs compute, stated over literal shapes with no program in sight.

  For a batch `b`, a region `r` and an output column `j` of the `[64, 50, 2048]` result:
  * the first 1024 columns are the visual projection  `max (∑ₖ x(b,r,k) · W(d,k) + bias(d)) 0`  (a matrix product over
    the 4096 features, the bias, then the rectifier);
  * the last 1024 columns are the phrase mean  `(∑ₗ p(b,r,l,d)) / n(b,r)`  over the 15 token slots, the divisor the
    region's phrase length read as a real number.
  The kernel divides by `max n 1` instead of `n`; for a length that is at least one the two divisors are the same
  extended real (`guard_eq`), which is the only law joining the two sides beyond reading both at an index.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- The visual half at `(b, r, d)`: the row of features against row `d` of the weight, plus the bias, rectified. -/
def visAt (x : (⟨3, ![64, 50, 4096]⟩ : Shape).Idx → EReal) (w : (⟨2, ![1024, 4096]⟩ : Shape).Idx → EReal)
    (bias : (⟨1, ![1024]⟩ : Shape).Idx → EReal) (b : Fin 64) (r : Fin 50) (d : Fin 1024) : EReal :=
  max ((∑ k : Fin 4096, x (ix3 b r k) * w (ix2 d k)) + bias (ix1 d)) 0

/-- The sum of a region's fifteen token embeddings at coordinate `d`. -/
def tokenSum (p : (⟨4, ![64, 50, 15, 1024]⟩ : Shape).Idx → EReal) (b : Fin 64) (r : Fin 50) (d : Fin 1024) : EReal :=
  ∑ l : Fin 15, p (ix4 b r l d)

/-- A region's phrase length as an extended real: the signed integer, exactly. -/
def lenAt (n : (⟨2, ![64, 50]⟩ : Shape).Idx → BitVec 32) (b : Fin 64) (r : Fin 50) : EReal :=
  (((n (ix2 b r)).toInt : ℝ) : EReal)

/-- The phrase half at `(b, r, d)`: the token sum over the length. -/
def meanAt (p : (⟨4, ![64, 50, 15, 1024]⟩ : Shape).Idx → EReal) (n : (⟨2, ![64, 50]⟩ : Shape).Idx → BitVec 32)
    (b : Fin 64) (r : Fin 50) (d : Fin 1024) : EReal :=
  Ideal.div (tokenSum p b r d) (lenAt n b r)

/-- The whole result: column `j < 1024` is the visual half at `j`, column `j ≥ 1024` the phrase half at `j - 1024`. -/
def result (x : (⟨3, ![64, 50, 4096]⟩ : Shape).Idx → EReal) (p : (⟨4, ![64, 50, 15, 1024]⟩ : Shape).Idx → EReal)
    (w : (⟨2, ![1024, 4096]⟩ : Shape).Idx → EReal) (bias : (⟨1, ![1024]⟩ : Shape).Idx → EReal)
    (n : (⟨2, ![64, 50]⟩ : Shape).Idx → BitVec 32) : (⟨3, ![64, 50, 2048]⟩ : Shape).Idx → EReal := fun i =>
  if h : (i 2).val < 1024 then visAt x w bias (i 0) (i 1) ⟨(i 2).val, h⟩
  else meanAt p n (i 0) (i 1) ⟨(i 2).val - 1024, by have h2 : (i 2).val < 2048 := (i 2).isLt; omega⟩

/-- The kernel's guarded divisor: for an integer that is at least one, `max n 1 = n` on the extended reals (the `1` is the
    f32 pattern of one). -/
theorem guard_eq {z : ℤ} (h : 1 ≤ z) :
    max (((z : ℝ)) : EReal) (Ideal.ofBits .f32 0x3F800000#32) = (((z : ℝ)) : EReal) := by
  rw [Ideal.ofBits_one_f32]
  refine max_eq_left ?_
  rw [show (1 : EReal) = ((1 : ℝ) : EReal) by norm_cast, EReal.coe_le_coe_iff]
  exact_mod_cast h

end Cert.Spec

end
-- ==== Proof.Slab.lean ====
/-
  From tiles to the slab.

  The [3200, 2048] slab is written in two passes.  The matmul call's ten grid points each write a [320, 1024] tile of
  its LEFT half (rows 320·t … 320·t+319, columns 0 … 1023); the mean-pool call starts from a copy of that slab and its
  sixteen grid points each write a [200, 1024] tile of the RIGHT half (rows 200·t … 200·t+199, columns 1024 … 2047).
  Every tile is the restriction of ONE function of the arguments, `slab`: row `R` stands for batch `R / 50` and region
  `R % 50`, the left columns hold the visual projection and the right columns the phrase mean.  A left-half entry is
  covered by the first pass only and a right-half entry by the second, so the slab ends holding that function
  everywhere, and the program's result — its reshape to [64, 50, 2048] — is the specified one.
  The phrase mean's divisor in the kernel is `max n 1`; the lengths being at least one is what makes it `n`.
-/
import proofs.«171343_j85280870629775_2_alg».proof.Proof.Gen.KernelIdeal.Frame
import proofs.«171343_j85280870629775_2_alg».proof.Proof.Entry
import proofs.«171343_j85280870629775_2_alg».proof.Proof.Tile0
import proofs.«171343_j85280870629775_2_alg».proof.Proof.Tile1
import proofs.«171343_j85280870629775_2_alg».proof.Proof.Rows
import proofs.«171343_j85280870629775_2_alg».proof.Proof.Spec
import Idealize.ShloMosaic.Lib.Pipeline.Value
import Idealize.ShloMosaic.Lib.ValueIdx

set_option maxRecDepth 16384

noncomputable section

namespace Cert.KernelIdeal.Slab

open Cert.KernelIdeal Cert.KernelIdeal.Gen Cert.Rows
open Idealize.ShloMosaic Idealize.ShloMosaic.TcCoe Idealize.SL.Sem Idealize.ShloMosaic.ValueIdx

/-- The slab as one function of the five arguments: entry `(R, j)` is the specified result at batch `R / 50`, region
    `R % 50`, column `j`. -/
def slab (x : S64x50x4096.Idx → EReal) (p : S64x50x15x1024.Idx → EReal) (w : S1024x4096.Idx → EReal)
    (bias : S1024.Idx → EReal) (n : S64x50.Idx → BitVec 32) : S3200x2048.Idx → EReal := fun i =>
  Cert.Spec.result x p w bias n
    (ix3 (batchOf ⟨(i 0).val, (i 0).isLt⟩) (regionOf ⟨(i 0).val, (i 0).isLt⟩) (⟨(i 1).val, (i 1).isLt⟩ : Fin 2048))

theorem slab_left (x : S64x50x4096.Idx → EReal) (p : S64x50x15x1024.Idx → EReal) (w : S1024x4096.Idx → EReal)
    (bias : S1024.Idx → EReal) (n : S64x50.Idx → BitVec 32) (R : Fin 3200) (j : Fin 2048) (h : j.val < 1024) :
    slab x p w bias n (ix2 R j) = Cert.Spec.visAt x w bias (batchOf R) (regionOf R) ⟨j.val, h⟩ := by
  unfold slab Cert.Spec.result
  exact dif_pos h

theorem slab_right (x : S64x50x4096.Idx → EReal) (p : S64x50x15x1024.Idx → EReal) (w : S1024x4096.Idx → EReal)
    (bias : S1024.Idx → EReal) (n : S64x50.Idx → BitVec 32) (R : Fin 3200) (j : Fin 2048) (h : 1024 ≤ j.val) :
    slab x p w bias n (ix2 R j)
      = Cert.Spec.meanAt p n (batchOf R) (regionOf R) ⟨j.val - 1024, by have := j.isLt; omega⟩ := by
  unfold slab Cert.Spec.result
  exact dif_neg (Nat.not_lt.mpr h)

variable (m : (ℓ : Loc nD τ sig) → Buf (Elt Ideal) ℓ) (ρ : Dev nD → PrngReg)

/-- The slab of the launch memory's arguments on core `c`. -/
abbrev slabOf (c : Dev nD) : S3200x2048.Idx → EReal :=
  slab (m ((c : Thread nD τ).loc main_arg0)) (m ((c : Thread nD τ).loc main_arg1)) (m ((c : Thread nD τ).loc main_arg2))
    (m ((c : Thread nD τ).loc main_arg3)) (m ((c : Thread nD τ).loc main_arg4))

/-! ## The matmul call: the left half -/

/-- The printed index maps of the matmul call, decided over its ten grid points: the feature tile and the output tile
    move down the rows with the point, the weight, the bias row and the output's column block stay at 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region0

variable (c : Dev nD) (t : Fin cfg0.N)

/-- Row `320·t + p` of the slab, for a point `t` of the matmul call and a row `p` of its tile. -/
def row0 (ht : t.val < 10) (p : Fin 320) : Fin 3200 := ⟨t.val * 320 + p.val, by have := p.isLt; omega⟩

/-- The feature tile of point `t` at `(p, k)` is the features of row `320·t + p` at `k`. -/
theorem features_blk (e0 : win0_0.index t (0 : Fin 2) = t.val) (e1 : win0_0.index t (1 : Fin 2) = 0) (ht : t.val < 10)
    (p : Fin 320) (k : Fin 4096) :
    iblk0 (V1 m ρ) c 0 t (ix2 p k)
      = m ((c : Thread nD τ).loc main_arg0) (ix3 (batchOf (row0 t ht p)) (regionOf (row0 t ht p)) k) := by
  show V1 m ρ c main_v0 (((cfg0.win 0).blk t).view.emb (ix2 p k)) = _
  have hemb : ((cfg0.win 0).blk t).view.emb (ix2 p k) = (ix2 (row0 t ht p) k : S3200x4096.Idx) :=
    funext fun a => Fin.ext (by
      match a with
      | ⟨0, _⟩ => show win0_0.index t (0 : Fin 2) * 320 + 1 * p.val = t.val * 320 + p.val; omega
      | ⟨1, _⟩ => show win0_0.index t (1 : Fin 2) * 4096 + 1 * k.val = k.val; omega)
  rw [hemb, Entry.features]
  exact Rows.features_at _ _ (row0 t ht p) k

/-- The weight block of any point at `(d, k)` is the weight at `(d, k)`: the format change is the identity. -/
theorem weight_blk (e0 : win0_1.index t (0 : Fin 2) = 0) (e1 : win0_1.index t (1 : Fin 2) = 0) (d : Fin 1024) (k : Fin 4096) :
    iblk0 (V1 m ρ) c 1 t (ix2 d k) = m ((c : Thread nD τ).loc main_arg2) (ix2 d k) := by
  show V1 m ρ c main_v2 (((cfg0.win 1).blk t).view.emb (ix2 d k)) = _
  have hemb : ((cfg0.win 1).blk t).view.emb (ix2 d k) = (ix2 d k : S1024x4096.Idx) :=
    funext fun a => Fin.ext (by
      match a with
      | ⟨0, _⟩ => show win0_1.index t (0 : Fin 2) * 1024 + 1 * d.val = d.val; omega
      | ⟨1, _⟩ => show win0_1.index t (1 : Fin 2) * 4096 + 1 * k.val = k.val; omega)
  rw [hemb, Entry.weight]
  rfl

/-- The bias row of any point at `(0, q)` is the bias at `q`. -/
theorem bias_blk (e0 : win0_2.index t (0 : Fin 2) = 0) (e1 : win0_2.index t (1 : Fin 2) = 0) (q : Fin 1024) :
    iblk0 (V1 m ρ) c 2 t (ix2 (0 : Fin 1) q) = m ((c : Thread nD τ).loc main_arg3) (ix1 q) := by
  show V1 m ρ c main_v1 (((cfg0.win 2).blk t).view.emb (ix2 (0 : Fin 1) q)) = _
  have hemb : ((cfg0.win 2).blk t).view.emb (ix2 (0 : Fin 1) q) = (ix2 (0 : Fin 1) q : S1x1024.Idx) :=
    funext fun a => Fin.ext (by
      match a with
      | ⟨0, _⟩ => show win0_2.index t (0 : Fin 2) * 1 + 1 * 0 = 0; omega
      | ⟨1, _⟩ => show win0_2.index t (1 : Fin 2) * 1024 + 1 * q.val = q.val; omega)
  rw [hemb, Entry.biasRow]
  exact Rows.bias_at _ _ q

/-- WHAT POINT `t` OF THE MATMUL CALL WRITES BACK is tile `t` of the slab function. -/
theorem flushed0 :
    (dat0 (V1 m ρ) c).flushed 3 t = ((cfg0.win 3).blk t).view.read (Elt Ideal) (slabOf m c) := by
  show (cfg0.win 3).cut (grid0.coords t) ((dat0 (V1 m ρ) c).after 3 t) = _
  rw [after0_3]
  obtain ⟨e00, e01, e10, e11, e20, e21, e30, e31⟩ := index0 t
  have ht : t.val < 10 := (t.isLt : t.val < grid0.N).trans_eq N_0
  funext y
  obtain ⟨p, q, rfl⟩ : ∃ (p : Fin 320) (q : Fin 1024), y = ix2 p q := ⟨y 0, y 1, eq_ix2 y⟩
  show out0_3 (iblk0 (V1 m ρ) c 0 t) (iblk0 (V1 m ρ) c 1 t) (iblk0 (V1 m ρ) c 2 t) (ix2 p q)
    = slabOf m c (((cfg0.win 3).blk t).view.emb (ix2 p q))
  refine (Tile0.out_apply (iblk0 (V1 m ρ) c 0 t) (iblk0 (V1 m ρ) c 1 t) (iblk0 (V1 m ρ) c 2 t) p q).trans ?_
  have hemb : ((cfg0.win 3).blk t).view.emb (ix2 p q)
      = (ix2 (row0 t ht p) (⟨q.val, by have := q.isLt; omega⟩ : Fin 2048) : S3200x2048.Idx) :=
    funext fun a => Fin.ext (by
      match a with
      | ⟨0, _⟩ => show win0_3.index t (0 : Fin 2) * 320 + 1 * p.val = t.val * 320 + p.val; omega
      | ⟨1, _⟩ => show win0_3.index t (1 : Fin 2) * 1024 + 1 * q.val = q.val; omega)
  rw [hemb]
  refine Eq.trans ?_ (slab_left _ _ _ _ _ (row0 t ht p) ⟨q.val, by have := q.isLt; omega⟩ q.isLt).symm
  unfold Cert.Spec.visAt
  refine congrArg₂ max (congrArg₂ (· + ·) (Finset.sum_congr rfl fun k _ => congrArg₂ (· * ·) ?_ ?_) ?_) rfl
  · exact features_blk m ρ c t e00 e01 ht p k
  · exact weight_blk m ρ c t e10 e11 q k
  · exact bias_blk m ρ c t e20 e21 q

end Region0

/-- An entry of the slab is in tile `t` of the matmul call's output iff each coordinate is in the tile's range. -/
theorem mem_blk0 (t : Fin cfg0.N) (i : S3200x2048.Idx) :
    i ∈ ((cfg0.win 3).blk t).view.set ↔ ∀ a : Fin 2, win0_3.index t a * S320x1024.size a ≤ (i a).val
      ∧ (i a).val < win0_3.index t a * S320x1024.size a + S320x1024.size a := by
  show i ∈ ((View.whole main_v3).slice (win0_3.rect t)).set ↔ _
  rw [View.set_slice_whole, Rect.mem_set_unit]
  exact Iff.rfl

/-- The matmul call's tiles cover exactly the left half. -/
theorem covered0 (i : S3200x2048.Idx) :
    (∃ t : Fin cfg0.N, (cfg0.win 3).flush t = true ∧ i ∈ ((cfg0.win 3).blk t).view.set) ↔ (i 1).val < 1024 := by
  have h0 : (i 0).val < 3200 := (i 0).isLt
  constructor
  · rintro ⟨t, -, hi⟩
    rw [mem_blk0] at hi
    have b1 : win0_3.index t (1 : Fin 2) * 1024 ≤ (i 1).val ∧ (i 1).val < win0_3.index t (1 : Fin 2) * 1024 + 1024 := hi 1
    obtain ⟨-, -, -, -, -, -, -, e31⟩ := index0 t
    omega
  · intro h
    have hlt : (i 0).val / 320 < cfg0.N := by
      show (i 0).val / 320 < grid0.N
      rw [N_0]; omega
    obtain ⟨-, -, -, -, -, -, e30, e31⟩ := index0 ⟨(i 0).val / 320, hlt⟩
    have e30' : win0_3.index ⟨(i 0).val / 320, hlt⟩ (0 : Fin 2) = (i 0).val / 320 := e30
    refine ⟨⟨(i 0).val / 320, hlt⟩, flush0_3 _, ?_⟩
    rw [mem_blk0]
    intro a
    match a with
    | ⟨0, _⟩ =>
      show win0_3.index ⟨(i 0).val / 320, hlt⟩ (0 : Fin 2) * 320 ≤ (i 0).val
        ∧ (i 0).val < win0_3.index ⟨(i 0).val / 320, hlt⟩ (0 : Fin 2) * 320 + 320
      omega
    | ⟨1, _⟩ =>
      show win0_3.index ⟨(i 0).val / 320, hlt⟩ (1 : Fin 2) * 1024 ≤ (i 1).val
        ∧ (i 1).val < win0_3.index ⟨(i 0).val / 320, hlt⟩ (1 : Fin 2) * 1024 + 1024
      omega

/-! ## The mean-pool call: the right half -/

/-- The printed index maps of the mean-pool call, decided over its sixteen grid points: the phrase tile, the length
    column and the output tile move down the rows with the point; the output's column block is 1, the right half. -/
theorem index1 : ∀ t : Fin cfg1.N, win1_0.index t (0 : Fin 3) = t.val ∧ win1_0.index t (1 : Fin 3) = 0
    ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 1 :=
  (by decide +kernel : ∀ t : Fin grid1.N, _)

section Region1

variable (c : Dev nD) (t : Fin cfg1.N)

/-- Row `200·t + p` of the slab, for a point `t` of the mean-pool call and a row `p` of its tile. -/
def row1 (ht : t.val < 16) (p : Fin 200) : Fin 3200 := ⟨t.val * 200 + p.val, by have := p.isLt; omega⟩

/-- The phrase tile of point `t` at `(p, l, q)` is the phrases of row `200·t + p` at `(l, q)`. -/
theorem phrases_blk (e0 : win1_0.index t (0 : Fin 3) = t.val) (e1 : win1_0.index t (1 : Fin 3) = 0)
    (e2 : win1_0.index t (2 : Fin 3) = 0) (ht : t.val < 16) (p : Fin 200) (l : Fin 15) (q : Fin 1024) :
    iblk1 (V3 m ρ) c 0 t (ix3 p l q)
      = m ((c : Thread nD τ).loc main_arg1) (ix4 (batchOf (row1 t ht p)) (regionOf (row1 t ht p)) l q) := by
  show V3 m ρ c main_v4 (((cfg1.win 0).blk t).view.emb (ix3 p l q)) = _
  have hemb : ((cfg1.win 0).blk t).view.emb (ix3 p l q) = (ix3 (row1 t ht p) l q : S3200x15x1024.Idx) :=
    funext fun a => Fin.ext (by
      match a with
      | ⟨0, _⟩ => show win1_0.index t (0 : Fin 3) * 200 + 1 * p.val = t.val * 200 + p.val; omega
      | ⟨1, _⟩ => show win1_0.index t (1 : Fin 3) * 15 + 1 * l.val = l.val; omega
      | ⟨2, _⟩ => show win1_0.index t (2 : Fin 3) * 1024 + 1 * q.val = q.val; omega)
  rw [hemb, Entry.phrases]
  exact Rows.phrases_at _ _ (row1 t ht p) l q

/-- The length column of point `t` at `(p, 0)` is the length of row `200·t + p`. -/
theorem lengths_blk (e0 : win1_1.index t (0 : Fin 2) = t.val) (e1 : win1_1.index t (1 : Fin 2) = 0) (ht : t.val < 16)
    (p : Fin 200) :
    iblk1 (V3 m ρ) c 1 t (ix2 p (0 : Fin 1))
      = m ((c : Thread nD τ).loc main_arg4) (ix2 (batchOf (row1 t ht p)) (regionOf (row1 t ht p))) := by
  show V3 m ρ c main_v5 (((cfg1.win 1).blk t).view.emb (ix2 p (0 : Fin 1))) = _
  have hemb : ((cfg1.win 1).blk t).view.emb (ix2 p (0 : Fin 1)) = (ix2 (row1 t ht p) (0 : Fin 1) : S3200x1.Idx) :=
    funext fun a => Fin.ext (by
      match a with
      | ⟨0, _⟩ => show win1_1.index t (0 : Fin 2) * 200 + 1 * p.val = t.val * 200 + p.val; omega
      | ⟨1, _⟩ => show win1_1.index t (1 : Fin 2) * 1 + 1 * 0 = 0; omega)
  rw [hemb, Entry.lengths]
  exact Rows.lengths_at _ _ (row1 t ht p)

/-- WHAT POINT `t` OF THE MEAN-POOL CALL WRITES BACK is tile `t` of the slab function, the lengths being at least one. -/
theorem flushed1 (hlen : ∀ i : S64x50.Idx, 1 ≤ (m ((c : Thread nD τ).loc main_arg4) i).toInt) :
    (dat1 (V3 m ρ) c).flushed 2 t = ((cfg1.win 2).blk t).view.read (Elt Ideal) (slabOf m c) := by
  show (cfg1.win 2).cut (grid1.coords t) ((dat1 (V3 m ρ) c).after 2 t) = _
  rw [after1_2]
  obtain ⟨f00, f01, f02, f10, f11, f20, f21⟩ := index1 t
  have ht : t.val < 16 := (t.isLt : t.val < grid1.N).trans_eq N_1
  funext y
  obtain ⟨p, q, rfl⟩ : ∃ (p : Fin 200) (q : Fin 1024), y = ix2 p q := ⟨y 0, y 1, eq_ix2 y⟩
  show outsAt1 (V3 m ρ) c t (ix2 p q) = slabOf m c (((cfg1.win 2).blk t).view.emb (ix2 p q))
  unfold outsAt1
  rw [Tile1.out_eq c (grid1.coords t) (ms1_0 t) (hs1_0 t) (ms1_1 t) (hs1_1 t) (ms1_2 t) (hs1_2 t)
    (iblk1 (V3 m ρ) c 0 t) (iblk1 (V3 m ρ) c 1 t)]
  refine (Tile1.pay_apply (iblk1 (V3 m ρ) c 0 t) (iblk1 (V3 m ρ) c 1 t) p q).trans ?_
  have hemb : ((cfg1.win 2).blk t).view.emb (ix2 p q)
      = (ix2 (row1 t ht p) (⟨1024 + q.val, by have := q.isLt; omega⟩ : Fin 2048) : S3200x2048.Idx) :=
    funext fun a => Fin.ext (by
      match a with
      | ⟨0, _⟩ => show win1_2.index t (0 : Fin 2) * 200 + 1 * p.val = t.val * 200 + p.val; omega
      | ⟨1, _⟩ => show win1_2.index t (1 : Fin 2) * 1024 + 1 * q.val = 1024 + q.val; omega)
  rw [hemb]
  refine Eq.trans ?_ (slab_right _ _ _ _ _ (row1 t ht p) ⟨1024 + q.val, by have := q.isLt; omega⟩
    (Nat.le_add_right 1024 q.val)).symm
  unfold Cert.Spec.meanAt Cert.Spec.tokenSum Cert.Spec.lenAt
  rw [lengths_blk m ρ c t f10 f11 ht p, Cert.Spec.guard_eq (hlen _)]
  refine congrArg₂ Ideal.div (Finset.sum_congr rfl fun l _ => ?_) rfl
  refine (phrases_blk m ρ c t f00 f01 f02 ht p l q).trans ?_
  exact congrArg (fun d : Fin 1024 => m ((c : Thread nD τ).loc main_arg1)
      (ix4 (batchOf (row1 t ht p)) (regionOf (row1 t ht p)) l d))
    (Fin.ext (by show q.val = 1024 + q.val - 1024; omega))

end Region1

/-- An entry of the slab is in tile `t` of the mean-pool call's output iff each coordinate is in the tile's range. -/
theorem mem_blk1 (t : Fin cfg1.N) (i : S3200x2048.Idx) :
    i ∈ ((cfg1.win 2).blk t).view.set ↔ ∀ a : Fin 2, win1_2.index t a * S200x1024.size a ≤ (i a).val
      ∧ (i a).val < win1_2.index t a * S200x1024.size a + S200x1024.size a := by
  show i ∈ ((View.whole main_v6).slice (win1_2.rect t)).set ↔ _
  rw [View.set_slice_whole, Rect.mem_set_unit]
  exact Iff.rfl

/-- The mean-pool call's tiles cover exactly the right half. -/
theorem covered1 (i : S3200x2048.Idx) :
    (∃ t : Fin cfg1.N, (cfg1.win 2).flush t = true ∧ i ∈ ((cfg1.win 2).blk t).view.set) ↔ 1024 ≤ (i 1).val := by
  have h0 : (i 0).val < 3200 := (i 0).isLt
  have h1 : (i 1).val < 2048 := (i 1).isLt
  constructor
  · rintro ⟨t, -, hi⟩
    rw [mem_blk1] at hi
    have b1 : win1_2.index t (1 : Fin 2) * 1024 ≤ (i 1).val ∧ (i 1).val < win1_2.index t (1 : Fin 2) * 1024 + 1024 := hi 1
    obtain ⟨-, -, -, -, -, -, f21⟩ := index1 t
    omega
  · intro h
    have hlt : (i 0).val / 200 < cfg1.N := by
      show (i 0).val / 200 < grid1.N
      rw [N_1]; omega
    obtain ⟨-, -, -, -, -, f20, f21⟩ := index1 ⟨(i 0).val / 200, hlt⟩
    have f20' : win1_2.index ⟨(i 0).val / 200, hlt⟩ (0 : Fin 2) = (i 0).val / 200 := f20
    refine ⟨⟨(i 0).val / 200, hlt⟩, flush1_2 _, ?_⟩
    rw [mem_blk1]
    intro a
    match a with
    | ⟨0, _⟩ =>
      show win1_2.index ⟨(i 0).val / 200, hlt⟩ (0 : Fin 2) * 200 ≤ (i 0).val
        ∧ (i 0).val < win1_2.index ⟨(i 0).val / 200, hlt⟩ (0 : Fin 2) * 200 + 200
      omega
    | ⟨1, _⟩ =>
      show win1_2.index ⟨(i 0).val / 200, hlt⟩ (1 : Fin 2) * 1024 ≤ (i 1).val
        ∧ (i 1).val < win1_2.index ⟨(i 0).val / 200, hlt⟩ (1 : Fin 2) * 1024 + 1024
      omega

/-! ## The slab after both calls, and the program's result -/

/-- After the mean-pool call the slab holds the slab function everywhere: its right half was written by this call, its
    left half is what the call found, which the matmul call wrote. -/
theorem final (c : Dev nD) (hlen : ∀ i : S64x50.Idx, 1 ≤ (m ((c : Thread nD τ).loc main_arg4) i).toInt) :
    (dat1 (V3 m ρ) c).arrAt 2 cfg1.N = slabOf m c := by
  funext i
  rw [(dat1 (V3 m ρ) c).arrAt_eq_piecewise 2 (slabOf m c) (fun t _ => flushed1 m ρ c t hlen) i]
  by_cases h : 1024 ≤ (i 1).val
  · rw [if_pos ((covered1 i).mpr h)]
  · rw [if_neg (mt (covered1 i).mp h), A_eq1]
    show V3 m ρ c main_v6 i = _
    rw [Entry.slab_in, (dat0 (V1 m ρ) c).arrAt_eq_piecewise 3 (slabOf m c) (fun t _ => flushed0 m ρ c t) i,
      if_pos ((covered0 i).mpr (by omega))]

/-- THE RESULT: the program's result buffer ends at the specified function of the five arguments. -/
theorem result (c : Dev nD) (hlen : ∀ i : S64x50.Idx, 1 ≤ (m ((c : Thread nD τ).loc main_arg4) i).toInt) :
    W5 m ρ c (Proc.devRef .tc main_v7)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [Entry.result, final m ρ c hlen]
  funext i
  obtain ⟨b, r, j, rfl⟩ : ∃ (b : Fin 64) (r : Fin 50) (j : Fin 2048), i = ix3 b r j := ⟨i 0, i 1, i 2, eq_ix3 i⟩
  refine (Rows.result_at _ _ b r j).trans ?_
  show Cert.Spec.result _ _ _ _ _ (ix3 (batchOf (rowOf b r)) (regionOf (rowOf b r)) j) = _
  rw [batchOf_rowOf, regionOf_rowOf]

end Cert.KernelIdeal.Slab

end
-- ==== Proof.RefValue.lean ====
/-
  The reference computes the specified function.

  Read one operation at a time: the first piece of the final concatenation is the rectified sum of the feature / weight
  product and the broadcast bias — the visual half — and the second piece is the token sum divided by the broadcast
  length converted to a real — the phrase half; the concatenation along the last axis reads the first piece on
  columns below 1024 and the second, shifted by 1024, above.  The reference's two zero constants (the initial value of
  its sum and the rectifier's bound) are the real zero.
-/
import proofs.«171343_j85280870629775_2_alg».proof.Proof.Gen.ReferenceIdeal.Read
import proofs.«171343_j85280870629775_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The rectified projection at `(b, r, d)` is the specification's visual half. -/
theorem vis_eq (x0 : FVec Ideal S64x50x4096 .f32) (x2 : FVec Ideal S1024x4096 .f32) (x3 : FVec Ideal S1024 .f32)
    (b : Fin 64) (r : Fin 50) (d : Fin 1024) :
    val_main_v9 (F := Ideal) x0 x2 x3 (ix3 b r d) = Cert.Spec.visAt x0 x2 x3 b r d := by
  rw [val_main_v9_apply, val_main_v8_apply, val_main_v5_apply, val_main_v7_apply, val_main_v6_apply,
    val_main_call0_v0_apply, val_main_call0_cst_apply]
  unfold Cert.Spec.visAt
  simp only [Ideal.maximumf_def, Ideal.addf_def, Ideal.ofBits_def, Ideal.ofBits_zero_f32]
  refine congrArg₂ max (congrArg₂ (· + ·) (Finset.sum_congr rfl fun k _ => ?_) ?_) rfl
  · exact congrArg₂ (· * ·)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg x3 (funext fun a => Fin.ext (by match a with | ⟨0, _⟩ => rfl))

/-- The quotient at `(b, r, d)` is the specification's phrase half. -/
theorem mean_eq (x1 : FVec Ideal S64x50x15x1024 .f32) (x4 : IVec S64x50 32) (b : Fin 64) (r : Fin 50) (d : Fin 1024) :
    val_main_v4 (F := Ideal) x1 x4 (ix3 b r d) = Cert.Spec.meanAt x1 x4 b r d := by
  rw [val_main_v4_apply, val_main_v0_apply, val_main_v3_apply, val_main_v2_apply, val_main_v1_apply, val_main_cst_apply]
  unfold Cert.Spec.meanAt Cert.Spec.tokenSum Cert.Spec.lenAt
  simp only [Ideal.hostDivf_def, Ideal.ofBits_def, Ideal.ofBits_zero_f32, zero_add]
  refine congrArg₂ Ideal.div (Finset.sum_congr rfl fun l _ => ?_) ?_
  · exact congrArg x1 (funext fun a => Fin.ext (by
      match a with | ⟨0, _⟩ => rfl | ⟨1, _⟩ => rfl | ⟨2, _⟩ => rfl | ⟨3, _⟩ => rfl))
  · exact congrArg (fun w : BitVec 32 => (((w.toInt : ℝ)) : EReal))
      (congrArg x4 (funext fun a => Fin.ext (by match a with | ⟨0, _⟩ => rfl | ⟨1, _⟩ => rfl)))

/-- The reference's result is the specified function of its five arguments. -/
theorem result_eq (x0 : FVec Ideal S64x50x4096 .f32) (x1 : FVec Ideal S64x50x15x1024 .f32) (x2 : FVec Ideal S1024x4096 .f32)
    (x3 : FVec Ideal S1024 .f32) (x4 : IVec S64x50 32) :
    val_main_v10 (F := Ideal) x0 x1 x2 x3 x4 = Cert.Spec.result x0 x1 x2 x3 x4 := by
  funext i
  obtain ⟨b, r, j, rfl⟩ : ∃ (b : Fin 64) (r : Fin 50) (j : Fin 2048), i = ix3 b r j := ⟨i 0, i 1, i 2, eq_ix3 i⟩
  unfold val_main_v10 Cert.Spec.result
  have hj : j.val < 2048 := j.isLt
  by_cases h : j.val < 1024
  · rw [dif_pos (show ((ix3 b r j : S64x50x2048.Idx) 2).val < 1024 from h)]
    refine (concatenate_pair_apply_left (t := S64x50x2048) (s₁ := S64x50x1024) (s₂ := S64x50x1024) (2 : Fin 3) _ _
      concatenates_S64x50x1024_S64x50x1024_S64x50x2048_d2
      (ix3 b r j) rfl (ix3 b r (⟨j.val, h⟩ : Fin 1024)) (fun a => by
        match a with | ⟨0, _⟩ => rfl | ⟨1, _⟩ => rfl | ⟨2, _⟩ => rfl)).trans ?_
    exact vis_eq x0 x2 x3 b r (⟨j.val, h⟩ : Fin 1024)
  · rw [dif_neg (show ¬ ((ix3 b r j : S64x50x2048.Idx) 2).val < 1024 from h)]
    refine (concatenate_pair_apply_right (t := S64x50x2048) (s₁ := S64x50x1024) (s₂ := S64x50x1024) (2 : Fin 3) _ _
      concatenates_S64x50x1024_S64x50x1024_S64x50x2048_d2
      (ix3 b r j) rfl rfl (ix3 b r (⟨j.val - 1024, by omega⟩ : Fin 1024)) (fun a hne => by
        match a with
        | ⟨0, _⟩ => rfl
        | ⟨1, _⟩ => rfl
        | ⟨2, _⟩ => exact absurd rfl hne) (by show (j.val - 1024) + 1024 = j.val; omega)).trans ?_
    exact mean_eq x1 x4 b r (⟨j.val - 1024, by omega⟩ : Fin 1024)

end Cert.ReferenceIdeal.RefValue

end
-- ==== Proof.PreLen.lean ====
/-
  What the precondition says about the phrase lengths.

  The precondition is a conjunction of six "all entries" tests: four say that every entry of a float input is finite,
  the last two that every phrase length is different from zero and that every phrase length is not negative.  A signed
  integer that is neither zero nor negative is at least one, which is the form the value proof uses: it makes the
  kernel's guarded divisor `max n 1` the reference's divisor `n`.
-/
import proofs.«171343_j85280870629775_2_alg».proof.Defs
import proofs.«171343_j85280870629775_2_alg».proof.Proof.Gen.Pre_finite_inputs
import Idealize.ShloMosaic.Lib.ReduceAll
import Idealize.ShloMosaic.Lib.Affine
import Idealize.ShloMosaic.Lib.ValueIdx

noncomputable section

namespace Cert.PreLen

open Cert.Pre_finite_inputs Idealize.ShloMosaic Idealize.SL.Sem

/-- The scalar shape has one index. -/
instance : Subsingleton S_.Idx := ⟨fun a b => funext fun d => d.elim0⟩

/-- If the precondition's predicate is all ones on five arrays, every entry of the integer array is at least one. -/
theorem len_pos {F : FTy → Type} [FloatOps F] (a0 : FVec F S64x50x4096 .f32) (a1 : FVec F S64x50x15x1024 .f32)
    (a2 : FVec F S1024x4096 .f32) (a3 : FVec F S1024 .f32) (n : IVec S64x50 32)
    (h : Cert.Pre_finite_inputs.fn (F := F) a0 a1 a2 a3 n = fun _ => 1#1) (i : S64x50.Idx) : 1 ≤ (n i).toInt := by
  have e := congrFun h ValueIdx.ix0
  unfold Cert.Pre_finite_inputs.fn at e
  dsimp only [Cert.Pre_finite_inputs.fn_part1] at e
  simp only [andi, IntOp.andi_eq_one] at e
  obtain ⟨⟨-, hne⟩, hge⟩ := e
  have h1 : IntOp.cmpi .ne (n i) 0#32 = 1#1 := Host.reduce_andi_all _ _ _ _ _ hne i
  have h2 : IntOp.cmpi .sge (n i) 0#32 = 1#1 := Host.reduce_andi_all _ _ _ _ _ hge i
  rw [IntOp.cmpi_ne] at h1
  rw [IntOp.cmpi_sge] at h2
  have h0 : (0#32 : BitVec 32).toInt = 0 := by decide
  rw [h0] at h2
  have hnz : (n i).toInt ≠ 0 := fun hz => h1 (BitVec.eq_of_toInt_eq (hz.trans h0.symm))
  omega

end Cert.PreLen

end
-- ==== Proof.lean ====
/-
  A two-call kernel against its one-line reference, equal over the extended reals.

  The result is a [64, 50, 2048] array.  Its first 1024 columns are the visual projection
  `max (x · Wᵀ + bias) 0` of the 4096 features of each of the 64 · 50 regions; its last 1024 columns are the mean of the
  region's 15 token embeddings, the token sum divided by the region's phrase length.  The kernel computes the two halves
  in two passes over one [3200, 2048] slab (a matmul call over ten row tiles, then a mean-pool call over sixteen row
  tiles that starts from the first call's slab), and reshapes the slab; the reference computes the two halves whole
  and concatenates them.

  Both sides are read at an index as the same two formulas (`Spec.lean`).  Changing the float format is the identity
  on the extended reals, a matrix product into a zero accumulator is the plain sum, and a different tiling is a
  different way of naming the same entries, so the visual half needs no law at all.  The phrase half differs in one
  place: the kernel divides by `max n 1`, the reference by `n`.  Under the precondition every phrase length is a
  positive integer, so the two divisors are equal; this is the only use of the precondition in the value claim.

  The frames of the two kernel programs are the generated ones; the reference's frame is its generated run with the
  result dropped; the idealization rewrote nothing, so there is nothing to preserve.
-/
import proofs.«171343_j85280870629775_2_alg».proof.Defs
import proofs.«171343_j85280870629775_2_alg».proof.Proof.Gen.Kernel
import proofs.«171343_j85280870629775_2_alg».proof.Proof.Gen.Kernel.Skeleton
import proofs.«171343_j85280870629775_2_alg».proof.Proof.Gen.Kernel.Launch
import proofs.«171343_j85280870629775_2_alg».proof.Proof.Gen.Kernel.Points
import proofs.«171343_j85280870629775_2_alg».proof.Proof.Gen.Kernel.Frame
import proofs.«171343_j85280870629775_2_alg».proof.Proof.Gen.KernelIdeal
import proofs.«171343_j85280870629775_2_alg».proof.Proof.Gen.KernelIdeal.Skeleton
import proofs.«171343_j85280870629775_2_alg».proof.Proof.Gen.KernelIdeal.Launch
import proofs.«171343_j85280870629775_2_alg».proof.Proof.Gen.KernelIdeal.Points
import proofs.«171343_j85280870629775_2_alg».proof.Proof.Gen.KernelIdeal.Frame
import proofs.«171343_j85280870629775_2_alg».proof.Proof.Gen.ReferenceIdeal
import proofs.«171343_j85280870629775_2_alg».proof.Proof.Gen.ReferenceIdeal.Run
import proofs.«171343_j85280870629775_2_alg».proof.Proof.Gen.ReferenceIdeal.Read
import proofs.«171343_j85280870629775_2_alg».proof.Proof.Gen.Pre_finite_inputs
import proofs.«171343_j85280870629775_2_alg».proof.Proof.FinalRun
import proofs.«171343_j85280870629775_2_alg».proof.Proof.Slab
import proofs.«171343_j85280870629775_2_alg».proof.Proof.RefValue
import proofs.«171343_j85280870629775_2_alg».proof.Proof.PreLen
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, with every phrase length at least one, both programs end with the
    specified function of the arguments in their result buffers. -/
theorem algebraic : Cert.algebraic_KernelIdeal_ReferenceIdeal := by
  intro m ρ m' ρ' hpre hagree
  have hlen : ∀ (c : Dev Cert.KernelIdeal.nD) (i : Cert.KernelIdeal.S64x50.Idx),
      1 ≤ (m ((c.tc : Thread Cert.KernelIdeal.nD Cert.KernelIdeal.τ).loc Cert.KernelIdeal.main_arg4) i).toInt :=
    fun c i => Cert.PreLen.len_pos _ _ _ _ _ (hpre c) i
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Slab.result m ρ c (hlen c)), (h c).2⟩)
      (Cert.KernelIdeal.Final.run_result m ρ)
  · refine (θ_run Cert.ReferenceIdeal.defs _ _).mono (fun r h c => ⟨?_, (h c).2⟩)
      (Cert.ReferenceIdeal.Value.run (F := Ideal) m' ρ')
    obtain ⟨e0, e1, e2, e3, e4⟩ := hagree c
    rw [(h c).1, Cert.ReferenceIdeal.Read.val_main_v10_eq, Cert.ReferenceIdeal.RefValue.result_eq, e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
